-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1230 : Shape := ⟨2, ![32768, 1230]⟩
abbrev S1230x1230 : Shape := ⟨2, ![1230, 1230]⟩
abbrev S_ : Shape := ⟨0, ![]⟩
abbrev S32768 : Shape := ⟨1, ![32768]⟩
abbrev S32768x1 : Shape := ⟨2, ![32768, 1]⟩

class Facts : Prop where
  bcast_S_S32768x1230 : S_.BroadcastsInDim S32768x1230 (![] : Fin 0 → Fin S32768x1230.rank)
  reducesTo_S32768x1230_S_d0_1 : S32768x1230.ReducesTo [0, 1] S_
  h_S_ : 0 < S_.numel
  bcast_S_S1230x1230 : S_.BroadcastsInDim S1230x1230 (![] : Fin 0 → Fin S1230x1230.rank)
  reducesTo_S1230x1230_S_d0_1 : S1230x1230.ReducesTo [0, 1] S_
  reducesTo_S32768x1230_S32768_d1 : S32768x1230.ReducesTo [1] S32768
  bcast_S32768_S32768x1_0 : S32768.BroadcastsInDim S32768x1 (![0] : Fin 1 → Fin S32768x1.rank)
  bcast_S32768x1_S32768x1230_0_1 : S32768x1.BroadcastsInDim S32768x1230 (![0, 1] : Fin 2 → Fin S32768x1230.rank)
  dot_S32768x1230_S1230x1230_S32768x1230_1_1_0_0_n_n_wf : DotDims.WF S32768x1230 S1230x1230 S32768x1230 [1] [1] [0] [0] [] []

variable [Facts]

def dot_S32768x1230_S1230x1230_S32768x1230_1_1_0_0_n_n : DotDims S32768x1230 S1230x1230 S32768x1230 where
  lhsContracting := [1]
  rhsContracting := [1]
  lhsNonContracting := [0]
  rhsNonContracting := [0]
  lhsBatch := []
  rhsBatch := []
  wf := dot_S32768x1230_S1230x1230_S32768x1230_1_1_0_0_n_n_wf
def fn_part1 {F : FTy → Type} [FloatOps F] (main_arg0 : FVec F S32768x1230 .f32) (main_arg1 : FVec F S32768x1230 .f32) (main_arg2 : FVec F S1230x1230 .f32) (main_v13 : IVec S_ 1) (main_v16 : FVec F S32768x1230 .f32) : IVec S_ 1 :=
  let main_v17 : FVec F S32768x1230 .f32 := subf main_arg0 main_v16
  let main_v18 : FVec F S32768x1230 .f32 := Host.exp main_v17
  let main_cst_5 : FVec F S_ .f32 := constant S_ .f32 0x3F800000#32
  let main_v19 : FVec F S32768x1230 .f32 := broadcastInDim S32768x1230 ![] bcast_S_S32768x1230 main_cst_5
  let main_v20 : FVec F S32768x1230 .f32 := subf main_v19 main_arg1
  let main_v21 : FVec F S32768x1230 .f32 := mulf main_v20 main_v18
  let main_v22 : FVec F S32768x1230 .f32 := (fun l r => Host.dotGeneral dot_S32768x1230_S1230x1230_S32768x1230_1_1_0_0_n_n none l r) main_v21 main_arg2
  let main_v23 : FVec F S32768x1230 .f32 := addf main_v22 main_v18
  let main_cst_6 : FVec F S_ .f32 := constant S_ .f32 0x358637BD#32
  let main_v24 : FVec F S32768x1230 .f32 := broadcastInDim S32768x1230 ![] bcast_S_S32768x1230 main_cst_6
  let main_v25 : FVec F S32768x1230 .f32 := addf main_v23 main_v24
  let main_v26 : FVec F S32768x1230 .f32 := Host.divf main_v18 main_v25
  let main_cst_7 : FVec F S_ .f32 := constant S_ .f32 0x00000000#32
  let main_v27 : FVec F S32768x1230 .f32 := broadcastInDim S32768x1230 ![] bcast_S_S32768x1230 main_cst_7
  let main_v28 : IVec S32768x1230 1 := cmpf .ogt main_v26 main_v27
  let main_c_8 : IVec S_ 1 := constantI S_ 1 1#1
  let main_v29 : IVec S_ 1 := (fun x v => Host.reduce IntOp.andi x v reducesTo_S32768x1230_S_d0_1 h_S_) main_v28 main_c_8
  let main_v30 : IVec S_ 1 := andi main_v13 main_v29
  main_v30

def fn {F : FTy → Type} [FloatOps F] (main_arg0 : FVec F S32768x1230 .f32) (main_arg1 : FVec F S32768x1230 .f32) (main_arg2 : FVec F S1230x1230 .f32) : IVec S_ 1 :=
  let main_v0 : FVec F S32768x1230 .f32 := Host.absf main_arg0
  let main_cst : FVec F S_ .f32 := constant S_ .f32 0x7F800000#32
  let main_v1 : FVec F S32768x1230 .f32 := broadcastInDim S32768x1230 ![] bcast_S_S32768x1230 main_cst
  let main_v2 : IVec S32768x1230 1 := cmpf .olt main_v0 main_v1
  let main_c : IVec S_ 1 := constantI S_ 1 1#1
  let main_v3 : IVec S_ 1 := (fun x v => Host.reduce IntOp.andi x v reducesTo_S32768x1230_S_d0_1 h_S_) main_v2 main_c
  let main_v4 : FVec F S32768x1230 .f32 := Host.absf main_arg1
  let main_cst_0 : FVec F S_ .f32 := constant S_ .f32 0x7F800000#32
  let main_v5 : FVec F S32768x1230 .f32 := broadcastInDim S32768x1230 ![] bcast_S_S32768x1230 main_cst_0
  let main_v6 : IVec S32768x1230 1 := cmpf .olt main_v4 main_v5
  let main_c_1 : IVec S_ 1 := constantI S_ 1 1#1
  let main_v7 : IVec S_ 1 := (fun x v => Host.reduce IntOp.andi x v reducesTo_S32768x1230_S_d0_1 h_S_) main_v6 main_c_1
  let main_v8 : IVec S_ 1 := andi main_v3 main_v7
  let main_v9 : FVec F S1230x1230 .f32 := Host.absf main_arg2
  let main_cst_2 : FVec F S_ .f32 := constant S_ .f32 0x7F800000#32
  let main_v10 : FVec F S1230x1230 .f32 := broadcastInDim S1230x1230 ![] bcast_S_S1230x1230 main_cst_2
  let main_v11 : IVec S1230x1230 1 := cmpf .olt main_v9 main_v10
  let main_c_3 : IVec S_ 1 := constantI S_ 1 1#1
  let main_v12 : IVec S_ 1 := (fun x v => Host.reduce IntOp.andi x v reducesTo_S1230x1230_S_d0_1 h_S_) main_v11 main_c_3
  let main_v13 : IVec S_ 1 := andi main_v8 main_v12
  let main_cst_4 : FVec F S_ .f32 := constant S_ .f32 0xFF800000#32
  let main_v14 : FVec F S32768 .f32 := (fun x v => Host.reduce FloatOps.maximumf x v reducesTo_S32768x1230_S32768_d1 h_S_) main_arg0 main_cst_4
  let main_v15 : FVec F S32768x1 .f32 := broadcastInDim S32768x1 ![0] bcast_S32768_S32768x1_0 main_v14
  let main_v16 : FVec F S32768x1230 .f32 := broadcastInDim S32768x1230 ![0, 1] bcast_S32768x1_S32768x1230_0_1 main_v15
  fn_part1 (F := F) main_arg0 main_arg1 main_arg2 main_v13 main_v16
-- ==== Kernel.lean ====
abbrev S32768x1230 : Shape := ⟨2, ![32768, 1230]⟩
abbrev S1230x1230 : Shape := ⟨2, ![1230, 1230]⟩
abbrev S64x8x128 : Shape := ⟨3, ![64, 8, 128]⟩
abbrev S512x1230 : Shape := ⟨2, ![512, 1230]⟩
abbrev S1x8x128 : Shape := ⟨3, ![1, 8, 128]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1x1 : Shape := ⟨3, ![1, 1, 1]⟩
abbrev S64x1x1 : Shape := ⟨3, ![64, 1, 1]⟩
abbrev S64 : Shape := ⟨1, ![64]⟩
abbrev S_ : Shape := ⟨0, ![]⟩

abbrev nBuf : Space → Nat
  | .hbm => 11
  | .vmem => 7
  | .smem => 0
  | _ => 0

abbrev bufTy : (tb : Table) → Fin (tcTables nBuf tb) → BufTy
  | .hbm, ⟨0, _⟩ => ⟨S32768x1230, .f32⟩
  | .hbm, ⟨1, _⟩ => ⟨S32768x1230, .f32⟩
  | .hbm, ⟨2, _⟩ => ⟨S1230x1230, .f32⟩
  | .hbm, ⟨3, _⟩ => ⟨S1230x1230, .bf16⟩
  | .hbm, ⟨4, _⟩ => ⟨S64x8x128, .f32⟩
  | .hbm, ⟨5, _⟩ => ⟨S64x1x1, .f32⟩
  | .hbm, ⟨6, _⟩ => ⟨S64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S512x1230, .f32⟩
  | .local _ .vmem, ⟨1, _⟩ => ⟨S512x1230, .f32⟩
  | .local _ .vmem, ⟨2, _⟩ => ⟨S512x1230, .f32⟩
  | .local _ .vmem, ⟨3, _⟩ => ⟨S512x1230, .f32⟩
  | .local _ .vmem, ⟨4, _⟩ => ⟨S1230x1230, .bf16⟩
  | .local _ .vmem, ⟨5, _⟩ => ⟨S1x8x128, .f32⟩
  | .local _ .vmem, ⟨6, _⟩ => ⟨S1x8x128, .f32⟩
  | _, _ => ⟨S32768x1230, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1230 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1230 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1230x1230 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S512x1230_S512x1230_0_0 : ∀ a, (![0, 0] : Fin 2 → Nat) a + S512x1230.size a ≤ S512x1230.size a
  h_S512x1230 : 0 < S512x1230.numel
  inb_S1230x1230_S1230x1230_0_0 : ∀ a, (![0, 0] : Fin 2 → Nat) a + S1230x1230.size a ≤ S1230x1230.size a
  h_S1230x1230 : 0 < S1230x1230.numel
  shapeCasts_S1230x1230_S1230x1230 : S1230x1230.ShapeCasts S1230x1230
  reduces_S512x1230_S512 : S512x1230.Reduces [1] S512
  shapeCasts_S512_S512x1 : S512.ShapeCasts S512x1
  broadcasts_S512x1_S512x1230 : S512x1.Broadcasts S512x1230
  reduces_S512x1_S1 : S512x1.Reduces [0] S1
  shapeCasts_S1_S1x1 : S1.ShapeCasts S1x1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S64x8x128_S64x1x1_0_0_0 : S64x8x128.Slices ![0, 0, 0] S64x1x1
  shapeCasts_S64x1x1_S64 : S64x1x1.ShapeCasts S64
  reducesTo_S64_S_d0 : S64.ReducesTo [0] S_
  h_S_ : 0 < S_.numel
  dot_S512x1230_S1230x1230_S512x1230_1_1_0_0_n_n_wf : DotDims.WF S512x1230 S1230x1230 S512x1230 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1230.size a ≤ S32768x1230.size a
  hwx0_0 : ∀ i : grid0.Coords, EltTy.bits .f32 = 32 ∨ (Rect.block (s := S32768x1230) S512x1230.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1230.size a ≤ S32768x1230.size a
  hwx0_1 : ∀ i : grid0.Coords, EltTy.bits .f32 = 32 ∨ (Rect.block (s := S32768x1230) S512x1230.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1230x1230.size a ≤ S1230x1230.size a
  hwx0_2 : ∀ i : grid0.Coords, EltTy.bits .bf16 = 32 ∨ (Rect.block (s := S1230x1230) S1230x1230.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S64x8x128.size a
  hwx0_3 : ∀ i : grid0.Coords, EltTy.bits .f32 = 32 ∨ (Rect.block (s := S64x8x128) S1x8x128.size (cc0_transform_3 i) (hinb0_3 i)).WholeWords (EltTy.packing .f32)

variable [Facts₀]

def dot_S512x1230_S1230x1230_S512x1230_1_1_0_0_n_n : DotDims S512x1230 S1230x1230 S512x1230 where
  lhsContracting := [1]
  rhsContracting := [1]
  lhsNonContracting := [0]
  rhsNonContracting := [0]
  lhsBatch := []
  rhsBatch := []
  wf := dot_S512x1230_S1230x1230_S512x1230_1_1_0_0_n_n_wf

abbrev win0_0 : Pipeline.Window sig grid0 :=
  Pipeline.Window.ofSpec (Memref.whole main_arg0) S512x1230.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1230.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1230x1230.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1230 : Shape := ⟨2, ![32768, 1230]⟩
abbrev S1230x1230 : Shape := ⟨2, ![1230, 1230]⟩
abbrev S_ : Shape := ⟨0, ![]⟩
abbrev S32768 : Shape := ⟨1, ![32768]⟩
abbrev S32768x1 : Shape := ⟨2, ![32768, 1]⟩

abbrev nBuf : Space → Nat
  | .hbm => 28
  | .vmem => 0
  | .smem => 0
  | _ => 0

abbrev bufTy : (tb : Table) → Fin (tcTables nBuf tb) → BufTy
  | .hbm, ⟨0, _⟩ => ⟨S32768x1230, .f32⟩
  | .hbm, ⟨1, _⟩ => ⟨S32768x1230, .f32⟩
  | .hbm, ⟨2, _⟩ => ⟨S1230x1230, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S32768x1230, .f32⟩
  | .hbm, ⟨7, _⟩ => ⟨S32768x1230, .f32⟩
  | .hbm, ⟨8, _⟩ => ⟨S32768x1230, .f32⟩
  | .hbm, ⟨9, _⟩ => ⟨S_, .f32⟩
  | .hbm, ⟨10, _⟩ => ⟨S32768x1230, .f32⟩
  | .hbm, ⟨11, _⟩ => ⟨S32768x1230, .f32⟩
  | .hbm, ⟨12, _⟩ => ⟨S32768x1230, .f32⟩
  | .hbm, ⟨13, _⟩ => ⟨S32768x1230, .f32⟩
  | .hbm, ⟨14, _⟩ => ⟨S32768x1230, .f32⟩
  | .hbm, ⟨15, _⟩ => ⟨S_, .f32⟩
  | .hbm, ⟨16, _⟩ => ⟨S32768x1230, .f32⟩
  | .hbm, ⟨17, _⟩ => ⟨S32768x1230, .f32⟩
  | .hbm, ⟨18, _⟩ => ⟨S32768x1230, .f32⟩
  | .hbm, ⟨19, _⟩ => ⟨S32768x1230, .f32⟩
  | .hbm, ⟨20, _⟩ => ⟨S32768x1230, .f32⟩
  | .hbm, ⟨21, _⟩ => ⟨S_, .f32⟩
  | .hbm, ⟨22, _⟩ => ⟨S32768, .f32⟩
  | .hbm, ⟨23, _⟩ => ⟨S32768, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S32768x1230, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  reducesTo_S32768x1230_S32768_d1 : S32768x1230.ReducesTo [1] S32768
  h_S_ : 0 < S_.numel
  bcast_S32768_S32768x1_0 : S32768.BroadcastsInDim S32768x1 (![0] : Fin 1 → Fin S32768x1.rank)
  bcast_S32768x1_S32768x1230_0_1 : S32768x1.BroadcastsInDim S32768x1230 (![0, 1] : Fin 2 → Fin S32768x1230.rank)
  bcast_S_S32768x1230 : S_.BroadcastsInDim S32768x1230 (![] : Fin 0 → Fin S32768x1230.rank)
  reducesTo_S32768_S_d0 : S32768.ReducesTo [0] S_
  dot_S32768x1230_S1230x1230_S32768x1230_1_1_0_0_n_n_wf : DotDims.WF S32768x1230 S1230x1230 S32768x1230 [1] [1] [0] [0] [] []

variable [Facts₀]

def dot_S32768x1230_S1230x1230_S32768x1230_1_1_0_0_n_n : DotDims S32768x1230 S1230x1230 S32768x1230 where
  lhsContracting := [1]
  rhsContracting := [1]
  lhsNonContracting := [0]
  rhsNonContracting := [0]
  lhsBatch := []
  rhsBatch := []
  wf := dot_S32768x1230_S1230x1230_S32768x1230_1_1_0_0_n_n_wf

class Facts : Prop extends Facts₀ where

variable [Facts]
-- ==== Proof.Seesaw.lean ====
/-
  The seesaw loss of one row, written twice over the extended reals, and the law that joins the two writings.

  A row has logits `l`, targets `t` (both indexed by the 1230 classes) and shares the class-by-class matrix `S`.
  With `M` the largest logit, `x c = l c - M`, `e c = exp (x c)` and
  `D i = (∑ k, ((1 - t k) * e k) * S i k) + e i + ε`, one writing of the row's loss subtracts logarithms,
  `0 - ∑ i, t i * (x i - log (D i))`, and the other takes the logarithm of the quotient,
  `-(0 + ∑ i, t i * log (e i / D i))`. For finite entries `e i` is a positive real and `D i` a real; where the
  quotient `e i / D i` is positive, `D i` is positive or zero. For `D i > 0` the two terms are `x i - log (D i)` by
  the logarithm of a quotient of positive reals; for `D i = 0` both are `+∞` (`x i - (-∞)` on one side, `log (+∞)` on
  the other). So the two writings agree on every row whose quotients are positive.

  The whole loss is the sum of the rows' losses scaled by `1/32768`: summed tile by tile (64 tiles of 512 rows) and
  multiplied by `2⁻¹⁵` in one writing, summed over all 32768 rows and divided by `32768` in the other. Sums of
  extended reals may be regrouped freely, and dividing by `32768` is multiplying by `2⁻¹⁵` at the infinities too.
-/
import Idealize.ShloMosaic.PureOps.Ideal
import Idealize.ShloMosaic.PureOps.Ideal.Laws
import Idealize.ShloMosaic.Lib.ValueIdx

noncomputable section

namespace Cert.Seesaw

open Idealize.ShloMosaic

/-! ## The constants, as the words both programs carry -/

/-- `-∞`, the value a row's maximum starts from. -/
def negInf : EReal := Ideal.ofBits .f32 0xFF800000#32
/-- `1.0`. -/
def one : EReal := Ideal.ofBits .f32 0x3F800000#32
/-- The f32 nearest `1e-6`. -/
def eps : EReal := Ideal.ofBits .f32 0x358637BD#32
/-- `0.0`. -/
def zero : EReal := Ideal.ofBits .f32 0x00000000#32
/-- `2⁻¹⁵`. -/
def invN : EReal := Ideal.ofBits .f32 0x38000000#32
/-- `32768.0`. -/
def bigN : EReal := Ideal.ofBits .f32 0x47000000#32

theorem negInf_eq : negInf = ⊥ := by
  unfold negInf; simp [Ideal.ofBits, Ideal.ieee]
theorem zero_eq : zero = 0 := Ideal.ofBits_zero_f32
theorem one_real : ∃ r : ℝ, one = (r : EReal) := by
  refine ⟨1, ?_⟩; unfold one; simp [Ideal.ofBits, Ideal.ieee, -EReal.coe_mul]; norm_num
theorem eps_real : ∃ r : ℝ, eps = (r : EReal) := by
  unfold eps; simp only [Ideal.ofBits, Ideal.ieee]; simp [-EReal.coe_mul]

/-! ## One row -/

/-- Row `n` of an array over rows × 1230. -/
abbrev row {R : Nat} (A : (⟨2, ![R, 1230]⟩ : Shape).Idx → EReal) (n : Fin R) : Fin 1230 → EReal :=
  fun c => A (ValueIdx.ix2 n c)
/-- The class matrix by its two coordinates. -/
abbrev mat (S : (⟨2, ![1230, 1230]⟩ : Shape).Idx → EReal) : Fin 1230 → Fin 1230 → EReal :=
  fun i k => S (ValueIdx.ix2 i k)

/-- The largest entry of a row, as a fold of `max` from `-∞`. -/
def rowMax (l : Fin 1230 → EReal) : EReal := (Finset.univ : Finset (Fin 1230)).fold max negInf l

/-- A logit less its row's maximum. -/
def shifted (l : Fin 1230 → EReal) (c : Fin 1230) : EReal := l c - rowMax l

/-- Its exponential. -/
def ex (l : Fin 1230 → EReal) (c : Fin 1230) : EReal := Ideal.exp (shifted l c)

/-- The weighted mass class `i` receives from the other classes: `∑ k, ((1 - t k) * e k) * S i k`. -/
def mass (l t : Fin 1230 → EReal) (S : Fin 1230 → Fin 1230 → EReal) (i : Fin 1230) : EReal :=
  ∑ k : Fin 1230, ((one - t k) * ex l k) * S i k

/-- The denominator of class `i`: its mass, its own exponential, and `ε`. -/
def den (l t : Fin 1230 → EReal) (S : Fin 1230 → Fin 1230 → EReal) (i : Fin 1230) : EReal :=
  (mass l t S i + ex l i) + eps

/-- The quotient whose logarithm one writing takes. -/
def sigma (l t : Fin 1230 → EReal) (S : Fin 1230 → Fin 1230 → EReal) (i : Fin 1230) : EReal :=
  Ideal.div (ex l i) (den l t S i)

/-- The row's loss with the logarithms subtracted. -/
def rowLossSub (l t : Fin 1230 → EReal) (S : Fin 1230 → Fin 1230 → EReal) : EReal :=
  zero - ∑ i : Fin 1230, t i * (shifted l i - Ideal.log (den l t S i))

/-- The row's loss with the logarithm of the quotient. -/
def rowLossQuot (l t : Fin 1230 → EReal) (S : Fin 1230 → Fin 1230 → EReal) : EReal :=
  -(zero + ∑ i : Fin 1230, t i * Ideal.log (sigma l t S i))

/-! ## Real entries give real intermediates -/

/-- A finite sum of reals, as extended reals, is the real sum. -/
theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The maximum of a row of reals is a real. -/
theorem rowMax_real (l : Fin 1230 → EReal) (hl : ∀ c, ∃ r : ℝ, l c = (r : EReal)) : ∃ M : ℝ, rowMax l = (M : EReal) := by
  have hbot : rowMax l ≠ ⊥ := by
    obtain ⟨r, hr⟩ := hl ⟨0, by decide⟩
    have h : l ⟨0, by decide⟩ ≤ rowMax l := by
      unfold rowMax
      exact (Finset.le_fold_max _).2 (Or.inr ⟨_, Finset.mem_univ _, le_rfl⟩)
    intro e
    rw [e, hr] at h
    exact absurd (le_bot_iff.1 h) (EReal.coe_ne_bot r)
  have htop : rowMax l ≠ ⊤ := by
    have h : rowMax l < ⊤ := by
      unfold rowMax
      refine (Finset.fold_max_lt _).2 ⟨?_, fun c _ => ?_⟩
      · rw [negInf_eq]; exact bot_lt_top
      · obtain ⟨r, hr⟩ := hl c; rw [hr]; exact EReal.coe_lt_top r
    exact ne_of_lt h
  exact ⟨(rowMax l).toReal, (EReal.coe_toReal htop hbot).symm⟩

/-! ## The law: the two writings of a row's loss agree where the quotients are positive -/

/-- For a positive real `E = exp x` and a real `D` with `E / D` positive: `x - log D = log (E / D)` on the extended
    reals — the logarithm of a quotient for `D > 0`, and `+∞` on both sides for `D = 0`. -/
theorem sub_log_eq_log_div (x D : ℝ) (hpos : 0 < Ideal.div ((Real.exp x : ℝ) : EReal) (D : EReal)) :
    ((x : ℝ) : EReal) - Ideal.log (D : EReal) = Ideal.log (Ideal.div ((Real.exp x : ℝ) : EReal) (D : EReal)) := by
  have hE : 0 < Real.exp x := Real.exp_pos x
  rcases lt_trichotomy D 0 with hD | hD | hD
  · -- a negative denominator makes the quotient negative
    exfalso
    unfold Ideal.div at hpos
    rw [if_neg (by exact_mod_cast hD.ne), ← EReal.coe_inv, ← EReal.coe_mul] at hpos
    have h1 : (0 : ℝ) < Real.exp x * D⁻¹ := by exact_mod_cast hpos
    have h2 : Real.exp x * D⁻¹ < 0 := mul_neg_of_pos_of_neg hE (inv_lt_zero.2 hD)
    exact absurd h1 (not_lt.2 h2.le)
  · subst hD
    have hE' : (0 : EReal) < ((Real.exp x : ℝ) : EReal) := by exact_mod_cast hE
    have hdiv : Ideal.div ((Real.exp x : ℝ) : EReal) ((0 : ℝ) : EReal) = ⊤ := by
      unfold Ideal.div; rw [if_pos (by simp), if_pos hE']
    have hlog0 : Ideal.log ((0 : ℝ) : EReal) = ⊥ := by
      show (if (0 : ℝ) ≤ 0 then (⊥ : EReal) else _) = ⊥
      rw [if_pos le_rfl]
    rw [hdiv, hlog0]
    show _ = (⊤ : EReal)
    rw [sub_eq_add_neg, EReal.neg_bot, EReal.coe_add_top]
  · have hq : 0 < Real.exp x / D := div_pos hE hD
    have hdiv : Ideal.div ((Real.exp x : ℝ) : EReal) (D : EReal) = ((Real.exp x / D : ℝ) : EReal) := by
      unfold Ideal.div
      rw [if_neg (by exact_mod_cast hD.ne'), ← EReal.coe_inv, ← EReal.coe_mul, div_eq_mul_inv]
    have hlogD : Ideal.log (D : EReal) = ((Real.log D : ℝ) : EReal) := by
      show (if D ≤ 0 then (⊥ : EReal) else _) = _
      rw [if_neg (not_le.2 hD)]
    have hlogq : Ideal.log ((Real.exp x / D : ℝ) : EReal) = ((Real.log (Real.exp x / D) : ℝ) : EReal) := by
      show (if Real.exp x / D ≤ 0 then (⊥ : EReal) else _) = _
      rw [if_neg (not_le.2 hq)]
    rw [hdiv, hlogD, hlogq, Real.log_div hE.ne' hD.ne', Real.log_exp, ← EReal.coe_sub]

/-- The two writings of a row's loss agree when every entry is real and every quotient is positive. -/
theorem rowLoss_eq (l t : Fin 1230 → EReal) (S : Fin 1230 → Fin 1230 → EReal)
    (hl : ∀ c, ∃ r : ℝ, l c = (r : EReal)) (ht : ∀ c, ∃ r : ℝ, t c = (r : EReal))
    (hS : ∀ i k, ∃ r : ℝ, S i k = (r : EReal)) (hpos : ∀ i, 0 < sigma l t S i) :
    rowLossSub l t S = rowLossQuot l t S := by
  obtain ⟨M, hM⟩ := rowMax_real l hl
  choose lr hlr using hl
  choose tr htr using ht
  choose Sr hSr using hS
  obtain ⟨o, ho⟩ := one_real
  obtain ⟨ε, hε⟩ := eps_real
  have hx : ∀ c, shifted l c = ((lr c - M : ℝ) : EReal) := fun c => by
    unfold shifted; rw [hlr, hM, EReal.coe_sub]
  have he : ∀ c, ex l c = ((Real.exp (lr c - M) : ℝ) : EReal) := fun c => by
    unfold ex; rw [hx]; rfl
  have hmass : ∀ i, mass l t S i = ((∑ k : Fin 1230, ((o - tr k) * Real.exp (lr k - M)) * Sr i k : ℝ) : EReal) := fun i => by
    unfold mass
    rw [← coe_sum]
    refine Finset.sum_congr rfl fun k _ => ?_
    rw [he, htr, hSr, ho, ← EReal.coe_sub, ← EReal.coe_mul, ← EReal.coe_mul]
  have hden : ∀ i, den l t S i = (((∑ k : Fin 1230, ((o - tr k) * Real.exp (lr k - M)) * Sr i k) + Real.exp (lr i - M) + ε : ℝ) : EReal) := fun i => by
    unfold den; rw [hmass, he, hε, ← EReal.coe_add, ← EReal.coe_add]
  have hterm : ∀ i, shifted l i - Ideal.log (den l t S i) = Ideal.log (sigma l t S i) := fun i => by
    have hp := hpos i
    unfold sigma at hp ⊢
    rw [he, hden] at hp ⊢
    rw [hx]
    exact sub_log_eq_log_div _ _ hp
  unfold rowLossSub rowLossQuot
  rw [zero_eq, sub_eq_add_neg, zero_add, zero_add]
  exact congrArg Neg.neg (Finset.sum_congr rfl fun i _ => by rw [hterm])

/-! ## All rows: tile by tile, or all at once -/

/-- A sum over the 32768 rows is the sum over the 64 tiles of the sums over each tile's 512 rows. -/
theorem sum_rows_tiles (f : Fin 32768 → EReal) :
    ∑ n : Fin 32768, f n = ∑ t : Fin 64, ∑ r : Fin 512, f ⟨512 * t.val + r.val, by have := t.isLt; have := r.isLt; omega⟩ := by
  rw [← Fintype.sum_prod_type']
  exact (Fintype.sum_equiv (finProdFinEquiv (m := 64) (n := 512))
    (fun p : Fin 64 × Fin 512 => f ⟨512 * p.1.val + p.2.val, by have := p.1.isLt; have := p.2.isLt; omega⟩)
    (fun n : Fin 32768 => f n) (fun p => congrArg f (Fin.ext (Nat.add_comm _ _)))).symm

/-- Tile `t`'s partial loss: the sum of the losses (logarithms subtracted) of rows `512 t … 512 t + 511`. -/
def tileLoss (L T : (⟨2, ![32768, 1230]⟩ : Shape).Idx → EReal) (S : (⟨2, ![1230, 1230]⟩ : Shape).Idx → EReal) (t : Fin 64) : EReal :=
  ∑ r : Fin 512, rowLossSub (row L ⟨512 * t.val + r.val, by have := t.isLt; have := r.isLt; omega⟩)
    (row T ⟨512 * t.val + r.val, by have := t.isLt; have := r.isLt; omega⟩) (mat S)

/-- The loss summed tile by tile from zero and multiplied by `2⁻¹⁵`. -/
def lossTiled (L T : (⟨2, ![32768, 1230]⟩ : Shape).Idx → EReal) (S : (⟨2, ![1230, 1230]⟩ : Shape).Idx → EReal) : EReal :=
  (zero + ∑ t : Fin 64, tileLoss L T S t) * invN

/-- The loss summed over all rows from zero (logarithm of the quotient) and divided by `32768`. -/
def lossWhole (L T : (⟨2, ![32768, 1230]⟩ : Shape).Idx → EReal) (S : (⟨2, ![1230, 1230]⟩ : Shape).Idx → EReal) : EReal :=
  Ideal.div (zero + ∑ n : Fin 32768, rowLossQuot (row L n) (row T n) (mat S)) bigN

/-- A sum over the indices of a one-axis shape is the sum over the axis's coordinates. -/
theorem sum_ix1 {N : Nat} (f : (⟨1, ![N]⟩ : Shape).Idx → EReal) : ∑ j, f j = ∑ n : Fin N, f (ValueIdx.ix1 n) :=
  (Fintype.sum_equiv ⟨fun n => ValueIdx.ix1 n, fun j => ⟨(j 0).val, (j 0).isLt⟩, fun n => rfl,
    fun j => (ValueIdx.eq_ix1 j).symm⟩ _ _ fun n => rfl).symm

theorem invN_eq : invN = (((1 : ℝ) / 32768 : ℝ) : EReal) := by
  unfold invN; simp [Ideal.ofBits, Ideal.ieee, -EReal.coe_mul]; norm_num
theorem bigN_eq : bigN = ((32768 : ℝ) : EReal) := by
  unfold bigN; simp [Ideal.ofBits, Ideal.ieee, -EReal.coe_mul]; norm_num

/-- Dividing by `32768` is multiplying by `2⁻¹⁵`, on every extended real. -/
theorem div_bigN (x : EReal) : Ideal.div x bigN = x * invN := by
  rw [bigN_eq, invN_eq]
  exact Ideal.div_coe (by norm_num) x

/-- THE LAW: on inputs whose entries are real and whose quotients are positive on every row, the loss summed tile by
    tile and scaled by `2⁻¹⁵` is the loss summed over all rows and divided by `32768`. -/
theorem loss_eq (L T : (⟨2, ![32768, 1230]⟩ : Shape).Idx → EReal) (S : (⟨2, ![1230, 1230]⟩ : Shape).Idx → EReal)
    (hL : ∀ n c, ∃ r : ℝ, row L n c = (r : EReal)) (hT : ∀ n c, ∃ r : ℝ, row T n c = (r : EReal))
    (hS : ∀ i k, ∃ r : ℝ, mat S i k = (r : EReal)) (hpos : ∀ n i, 0 < sigma (row L n) (row T n) (mat S) i) :
    lossTiled L T S = lossWhole L T S := by
  unfold lossTiled lossWhole
  rw [div_bigN, sum_rows_tiles]
  refine congrArg (fun x => (zero + x) * invN) (Finset.sum_congr rfl fun t _ => ?_)
  unfold tileLoss
  exact Finset.sum_congr rfl fun r _ => rowLoss_eq _ _ _ (hL _) (hT _) hS (hpos _)

end Cert.Seesaw

end
-- ==== Proof.RefRead.lean ====
/-
  The reference's stages read at an index, in the row-by-row vocabulary of the seesaw loss.

  Row `n` of an array `A` over 32768 × 1230 is `fun c => A (n, c)`; the class matrix is `fun i k => S (i, k)`. Each
  stage of the reference at `(n, i)` is then a function of row `n` of the logits, row `n` of the targets and the
  matrix: the row maximum (a fold of `max` over the row's 1230 entries), the shifted logit, its exponential, the
  contraction `∑ k, ((1 - t k) * e k) * S (i, k)` (the second axis of `S` is the contracted one), the denominator,
  the quotient, and, summed over `i` and negated, the row's loss with the logarithm of the quotient. The result is
  the sum of the 32768 rows' losses divided by `32768`.
-/
import proofs.«172744_j5076651344113_2_alg».proof.Proof.Gen.ReferenceIdeal.Read
import proofs.«172744_j5076651344113_2_alg».proof.Proof.Seesaw

noncomputable section

namespace Cert.ReferenceIdeal.RefRead

open Cert.ReferenceIdeal Cert.ReferenceIdeal.Gen Cert.ReferenceIdeal.Read Idealize.ShloMosaic Idealize.ShloMosaic.ValueIdx Cert.Seesaw

variable (L T : (⟨S32768x1230, .f32⟩ : BufTy).Contents (Elt Ideal)) (S : (⟨S1230x1230, .f32⟩ : BufTy).Contents (Elt Ideal))

/-- The reduction over the class axis is the row's maximum. -/
theorem v0_at (n : Fin 32768) : val_main_v0 (F := Ideal) L (ix1 n) = rowMax (row L n) := by
  unfold val_main_v0
  refine (Host.reduce_eq_fold_single (FloatOps.maximumf (F := Ideal) (φ := .f32)) L _ reducesTo_S32768x1230_S32768_d1
    (by decide : S32768x1230.Reduces [1] S32768) h_S_ (ix1 n)).trans ?_
  have e : (L ∘ (by decide : S32768x1230.Reduces [1] S32768).lift (ix1 n)) = row L n :=
    funext fun c => congrArg L (funext fun a => Fin.ext (by match a with | ⟨0, _⟩ => rfl | ⟨1, _⟩ => rfl))
  rw [e]
  rfl

theorem v2_at (n : Fin 32768) (c : Fin 1230) : val_main_v2 (F := Ideal) L (ix2 n c) = rowMax (row L n) := by
  have e : idx_main_v1 (idx_main_v2 (ix2 n c)) = ix1 n := funext fun a => Fin.ext (by match a with | ⟨0, _⟩ => rfl)
  rw [val_main_v2_apply, val_main_v1_apply, e, v0_at]

theorem v3_at (n : Fin 32768) (c : Fin 1230) : val_main_v3 (F := Ideal) L (ix2 n c) = shifted (row L n) c := by
  rw [val_main_v3_apply, v2_at]; rfl

theorem v4_at (n : Fin 32768) (c : Fin 1230) : val_main_v4 (F := Ideal) L (ix2 n c) = ex (row L n) c := by
  rw [val_main_v4_apply, v3_at]; rfl

theorem v7_at (n : Fin 32768) (k : Fin 1230) :
    val_main_v7 (F := Ideal) L T (ix2 n k) = (one - row T n k) * ex (row L n) k := by
  rw [val_main_v7_apply, val_main_v6_apply, val_main_v5_apply, val_main_cst_0_apply, v4_at]; rfl

theorem v8_at (n : Fin 32768) (i : Fin 1230) :
    val_main_v8 (F := Ideal) L T S (ix2 n i) = mass (row L n) (row T n) (mat S) i := by
  rw [val_main_v8_apply]
  unfold mass
  refine Finset.sum_congr rfl fun k _ => ?_
  have el : lidx_main_v8 (ix2 n i) k = ix2 n k := funext fun a => Fin.ext (by match a with | ⟨0, _⟩ => rfl | ⟨1, _⟩ => rfl)
  have er : ridx_main_v8 (ix2 n i) k = ix2 i k := funext fun a => Fin.ext (by match a with | ⟨0, _⟩ => rfl | ⟨1, _⟩ => rfl)
  rw [el, er, v7_at]

theorem v11_at (n : Fin 32768) (i : Fin 1230) :
    val_main_v11 (F := Ideal) L T S (ix2 n i) = den (row L n) (row T n) (mat S) i := by
  rw [val_main_v11_apply, val_main_v9_apply, val_main_v10_apply, val_main_cst_1_apply, v8_at, v4_at]; rfl

/-- The quotient under the reference's logarithm. -/
theorem v12_at (n : Fin 32768) (i : Fin 1230) :
    val_main_v12 (F := Ideal) L T S (ix2 n i) = sigma (row L n) (row T n) (mat S) i := by
  rw [val_main_v12_apply, v11_at, v4_at]; rfl

theorem v14_at (n : Fin 32768) (i : Fin 1230) :
    val_main_v14 (F := Ideal) L T S (ix2 n i) = row T n i * Ideal.log (sigma (row L n) (row T n) (mat S) i) := by
  rw [val_main_v14_apply, val_main_v13_apply, v12_at]; rfl

/-- A row's loss, with the logarithm of the quotient. -/
theorem v16_at (n : Fin 32768) :
    val_main_v16 (F := Ideal) L T S (ix1 n) = rowLossQuot (row L n) (row T n) (mat S) := by
  rw [val_main_v16_apply, val_main_v15_apply, val_main_cst_2_apply]
  unfold rowLossQuot
  have e : ∀ k : Fin 1230, idx_main_v15 (ix1 n) k = ix2 n k := fun k =>
    funext fun a => Fin.ext (by match a with | ⟨0, _⟩ => rfl | ⟨1, _⟩ => rfl)
  simp only [e, v14_at]
  rfl

/-- The reference's result: the rows' losses summed and divided by `32768`. -/
theorem v18_at :
    val_main_v18 (F := Ideal) L T S ix0
      = Ideal.div (zero + ∑ n : Fin 32768, rowLossQuot (row L n) (row T n) (mat S)) bigN := by
  rw [val_main_v18_apply, val_main_v17_apply, val_main_cst_3_apply, val_main_cst_4_apply]
  have e : ∑ j : S32768.Idx, val_main_v16 (F := Ideal) L T S j = ∑ n : Fin 32768, rowLossQuot (row L n) (row T n) (mat S) := by
    rw [sum_ix1]
    exact Finset.sum_congr rfl fun n _ => v16_at L T S n
  rw [e]
  rfl

end Cert.ReferenceIdeal.RefRead

end
-- ==== Proof.PreFacts.lean ====
/-
  What the precondition gives: every entry of the three inputs is a real number, and on every row the quotient under
  the reference's logarithm is positive.

  The precondition is a conjunction of four `all`s. The first three say `|x| < +∞` of every entry of the logits, the
  targets and the class matrix, which on the extended reals leaves exactly the reals. The fourth says `0 < σ` of every
  entry of the quotient `σ = e / (D + ε)`, computed from the inputs by the same operations as the reference computes
  it, so that it is the reference's own stage read at that index.
-/
import proofs.«172744_j5076651344113_2_alg».proof.Proof.Gen.Pre_finite_inputs
import proofs.«172744_j5076651344113_2_alg».proof.Proof.RefRead
import Idealize.ShloMosaic.Lib.ReduceAll

noncomputable section

namespace Cert.PreFacts

open Idealize.ShloMosaic Idealize.ShloMosaic.ValueIdx Cert.Seesaw

instance : Subsingleton (⟨0, ![]⟩ : Shape).Idx := ⟨fun a b => funext fun d => d.elim0⟩

/-- A comparison's word is one exactly when the comparison holds. -/
theorem of_ofBool_eq_one {p : Prop} [Decidable p] (h : BitVec.ofBool (decide p) = 1#1) : p := by
  by_cases hp : p
  · exact hp
  · rw [decide_eq_false hp] at h; exact absurd h (by decide)

/-- An extended real whose absolute value is below `+∞` is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One entry of an `all (|A| < +∞)`: that entry of `A` is a real. -/
theorem real_of_finite {s : Shape} (A : FVec Ideal s .f32) (hb : (⟨0, ![]⟩ : Shape).BroadcastsInDim s (![] : Fin 0 → Fin s.rank))
    (i : s.Idx)
    (h : cmpf .olt (Host.absf A) (broadcastInDim s ![] hb (constant (F := Ideal) ⟨0, ![]⟩ .f32 0x7F800000#32)) i = 1#1) :
    ∃ r : ℝ, A i = (r : EReal) := by
  have h' : BitVec.ofBool (decide (max (A i) (-(A i)) < Ideal.ofBits .f32 0x7F800000#32)) = 1#1 := h
  refine real_of_abs_lt_top (A i) ?_
  have e : Ideal.ofBits .f32 0x7F800000#32 = (⊤ : EReal) := by simp [Ideal.ofBits, Ideal.ieee]
  rw [← e]
  exact of_ofBool_eq_one h'

variable (L T : FVec Ideal Cert.Pre_finite_inputs.S32768x1230 .f32) (S : FVec Ideal Cert.Pre_finite_inputs.S1230x1230 .f32)
  (hpre : Cert.Pre_finite_inputs.fn (F := Ideal) L T S = fun _ => 1#1)

include hpre

/-- The four conjuncts of the precondition, each still an `all`. -/
theorem conjuncts :
    (∀ i, ∃ r : ℝ, L i = (r : EReal)) ∧ (∀ i, ∃ r : ℝ, T i = (r : EReal)) ∧ (∀ i, ∃ r : ℝ, S i = (r : EReal))
      ∧ ∀ i, Ideal.ofBits .f32 0x00000000#32 < Cert.ReferenceIdeal.Read.val_main_v12 (F := Ideal) L T S i := by
  have h0 := congrFun hpre ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact real_of_finite L _ i (Host.reduce_andi_all _ _ _ _ ix0 h1 i)
  · exact real_of_finite T _ i (Host.reduce_andi_all _ _ _ _ ix0 h2 i)
  · exact real_of_finite S _ i (Host.reduce_andi_all _ _ _ _ ix0 h3 i)
  · have hs := Host.reduce_andi_all _ _ _ _ ix0 h4 i
    have hc : BitVec.ofBool (decide (Ideal.ofBits .f32 0x00000000#32 < Cert.ReferenceIdeal.Read.val_main_v12 (F := Ideal) L T S i)) = 1#1 := hs
    exact of_ofBool_eq_one hc

/-- Every entry of a row of the logits is a real. -/
theorem logits_real (n : Fin 32768) (c : Fin 1230) : ∃ r : ℝ, row L n c = (r : EReal) := (conjuncts L T S hpre).1 _
/-- Every entry of a row of the targets is a real. -/
theorem targets_real (n : Fin 32768) (c : Fin 1230) : ∃ r : ℝ, row T n c = (r : EReal) := (conjuncts L T S hpre).2.1 _
/-- Every entry of the class matrix is a real. -/
theorem matrix_real (i k : Fin 1230) : ∃ r : ℝ, mat S i k = (r : EReal) := (conjuncts L T S hpre).2.2.1 _

/-- On every row, every quotient under the reference's logarithm is positive. -/
theorem sigma_pos (n : Fin 32768) (i : Fin 1230) : 0 < sigma (row L n) (row T n) (mat S) i := by
  have h := (conjuncts L T S hpre).2.2.2 (ix2 n i)
  rw [Cert.ReferenceIdeal.RefRead.v12_at, Ideal.ofBits_zero_f32] at h
  exact h

end Cert.PreFacts

end
-- ==== Proof.Payload.lean ====
/-
  What the kernel's body stores for one tile, read at an index.

  The body works on a tile of 512 rows: the logits' and the targets' blocks `x0`, `x1` (512 × 1230) and the class
  matrix `x2` (1230 × 1230). Stage by stage, at row `r` and class `c` of the tile: the row's maximum (a lane
  reduction by `max`, kept as a column and repeated across the lanes), the shifted logit, its exponential, the
  contraction over the matrix's second axis, the denominator, the term `t * (x - log D)`; the lane sum of the terms
  kept as a column and subtracted from zero is the row's loss; the sum of the 512 rows' losses down the column is the
  tile's partial loss, which the body repeats over its whole 1 × 8 × 128 output block.
-/
import proofs.«172744_j5076651344113_2_alg».proof.Proof.Gen.KernelIdeal.Skeleton
import proofs.«172744_j5076651344113_2_alg».proof.Proof.Seesaw
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.Seesaw

/-! ## The layout steps of the body, at an index -/

/-- A vector of 512 entries kept as a 512 × 1 column: entry `r`. -/
theorem col_at {α : Type} (v : S512.Idx → α) (h : S512.ShapeCasts S512x1) (r : Fin 512) (q : Fin 1) :
    shapeCast S512x1 v h (ix2 r q) = v (ix1 r) :=
  shapeCast_apply v h (ix2 r q) (ix1 r) (by
    rw [Shape.rowMajor_val_one, Shape.rowMajor_val_two]
    have := q.isLt
    show r.val = r.val * 1 + q.val
    omega)

/-- A 512 × 1 column repeated across 1230 lanes: the column's entry of that row. -/
theorem repeat_col_at {α : Type} (v : S512x1.Idx → α) (h : S512x1.Broadcasts S512x1230) (r : Fin 512) (c : Fin 1230) :
    broadcastTo S512x1230 v h (ix2 r c) = v (ix2 r (0 : Fin 1)) :=
  broadcastTo_apply v h (ix2 r c) (ix2 r (0 : Fin 1)) (fun a => match a with
    | ⟨0, _⟩ => by show r.val = if (512 : Nat) = 1 then 0 else r.val; rw [if_neg (by decide)]
    | ⟨1, _⟩ => by show (0 : Nat) = if (1 : Nat) = 1 then 0 else c.val; rw [if_pos rfl])

/-- A lane reduction by `max` from `-∞`: the row's maximum. -/
theorem lane_max_at (v : FVec Ideal S512x1230 .f32) (h : S512x1230.Reduces [1] S512) (hφ : FKind.Formats .f32)
    (hacc : (0xFF800000#32 : BitVec 32) = 0xFF800000#32) (r : Fin 512) :
    multiReduction .maximumf [1] S512 v 0xFF800000#32 h hφ hacc (ix1 r) = rowMax (row v r) := by
  refine (Ideal.multiReduction_maximumf_single v 0xFF800000#32 h hφ hacc (ix1 r)).trans ?_
  have e : (v ∘ h.lift (ix1 r)) = row v r :=
    funext fun c => congrArg v (funext fun a => Fin.ext (by match a with | ⟨0, _⟩ => rfl | ⟨1, _⟩ => rfl))
  rw [e]
  rfl

/-- A lane sum: the sum of the row's 1230 entries. -/
theorem lane_sum_at (v : FVec Ideal S512x1230 .f32) (h : S512x1230.Reduces [1] S512) (hφ : FKind.Formats .f32)
    (hacc : (0x00000000#32 : BitVec 32) = 0x00000000#32) (r : Fin 512) :
    multiReduction .add [1] S512 v 0x00000000#32 h hφ hacc (ix1 r) = ∑ c : Fin 1230, v (ix2 r c) := by
  refine (Ideal.multiReduction_add_single v 0x00000000#32 h hφ hacc (ix1 r)).trans ?_
  exact Finset.sum_congr rfl fun c _ =>
    congrArg v (funext fun a => Fin.ext (by match a with | ⟨0, _⟩ => rfl | ⟨1, _⟩ => rfl))

/-- The sum down a 512 × 1 column, cast to 1 × 1 × 1 and repeated over the 1 × 8 × 128 block: the column's total, at
    every index of the block. -/
theorem column_total_at (w : FVec Ideal S512x1 .f32) (h : S512x1.Reduces [0] S1) (hφ : FKind.Formats .f32)
    (hacc : (0x00000000#32 : BitVec 32) = 0x00000000#32) (h1 : S1.ShapeCasts S1x1) (h2 : S1x1.ShapeCasts S1x1x1)
    (hb : S1x1x1.Broadcasts S1x8x128) (j : S1x8x128.Idx) :
    broadcastTo S1x8x128 (shapeCast S1x1x1 (shapeCast S1x1 (multiReduction .add [0] S1 w 0x00000000#32 h hφ hacc) h1) h2) hb j
      = ∑ r : Fin 512, w (ix2 r (0 : Fin 1)) := by
  refine (broadcastTo_apply _ hb j (ix3 (0 : Fin 1) (0 : Fin 1) (0 : Fin 1)) (fun a => match a with
    | ⟨0, _⟩ => by show (0 : Nat) = if (1 : Nat) = 1 then 0 else _; rw [if_pos rfl]
    | ⟨1, _⟩ => by show (0 : Nat) = if (1 : Nat) = 1 then 0 else _; rw [if_pos rfl]
    | ⟨2, _⟩ => by show (0 : Nat) = if (1 : Nat) = 1 then 0 else _; rw [if_pos rfl])).trans ?_
  refine (shapeCast_apply _ h2 _ (ix2 (0 : Fin 1) (0 : Fin 1)) (by
    rw [Shape.rowMajor_val_two, Shape.rowMajor_val_three]; rfl)).trans ?_
  refine (shapeCast_apply _ h1 _ (ix1 (0 : Fin 1)) (by
    rw [Shape.rowMajor_val_one, Shape.rowMajor_val_two]; rfl)).trans ?_
  refine (Ideal.multiReduction_add_single w 0x00000000#32 h hφ hacc (ix1 (0 : Fin 1))).trans ?_
  exact Finset.sum_congr rfl fun r _ =>
    congrArg w (funext fun a => Fin.ext (by match a with | ⟨0, _⟩ => rfl | ⟨1, _⟩ => rfl))

/-- The contraction's left operand index keeps the output's row. -/
theorem lhs_row (j : S512x1230.Idx) (q : dot_S512x1230_S1230x1230_S512x1230_1_1_0_0_n_n.contr.Idx) :
    (dot_S512x1230_S1230x1230_S512x1230_1_1_0_0_n_n.lhsIdx j q 0).val = (j 0).val := by
  unfold DotDims.lhsIdx
  rw [dif_neg (show ¬(0 : Fin S512x1230.rank) ∈ dot_S512x1230_S1230x1230_S512x1230_1_1_0_0_n_n.lhsBatch by decide),
    dif_pos (show (0 : Fin S512x1230.rank) ∈ dot_S512x1230_S1230x1230_S512x1230_1_1_0_0_n_n.lhsNonContracting by decide)]
  rfl
/-- Its second coordinate is the contraction index. -/
theorem lhs_contr (j : S512x1230.Idx) (q : dot_S512x1230_S1230x1230_S512x1230_1_1_0_0_n_n.contr.Idx) :
    (dot_S512x1230_S1230x1230_S512x1230_1_1_0_0_n_n.lhsIdx j q 1).val = (q ⟨0, by decide⟩).val :=
  dot_S512x1230_S1230x1230_S512x1230_1_1_0_0_n_n.lhsIdx_val_of_single rfl j q
/-- The right operand index takes the output's COLUMN as its first coordinate (the matrix is contracted along its
    second axis), -/
theorem rhs_col (j : S512x1230.Idx) (q : dot_S512x1230_S1230x1230_S512x1230_1_1_0_0_n_n.contr.Idx) :
    (dot_S512x1230_S1230x1230_S512x1230_1_1_0_0_n_n.rhsIdx j q 0).val = (j 1).val := by
  unfold DotDims.rhsIdx
  rw [dif_neg (show ¬(0 : Fin S1230x1230.rank) ∈ dot_S512x1230_S1230x1230_S512x1230_1_1_0_0_n_n.rhsBatch by decide),
    dif_pos (show (0 : Fin S1230x1230.rank) ∈ dot_S512x1230_S1230x1230_S512x1230_1_1_0_0_n_n.rhsNonContracting by decide)]
  rfl
/-- and the contraction index as its second. -/
theorem rhs_contr (j : S512x1230.Idx) (q : dot_S512x1230_S1230x1230_S512x1230_1_1_0_0_n_n.contr.Idx) :
    (dot_S512x1230_S1230x1230_S512x1230_1_1_0_0_n_n.rhsIdx j q 1).val = (q ⟨0, by decide⟩).val :=
  dot_S512x1230_S1230x1230_S512x1230_1_1_0_0_n_n.rhsIdx_val_of_single rfl j q

/-- The tile's contraction against the matrix's SECOND axis into a zero accumulator: `∑ k, a (r, k) * b (i, k)`. -/
theorem contract_at (a : FVec Ideal S512x1230 .bf16) (b : FVec Ideal S1230x1230 .bf16) (r : Fin 512) (i : Fin 1230) :
    matmul dot_S512x1230_S1230x1230_S512x1230_1_1_0_0_n_n none a b (constant S512x1230 .f32 0x00000000#32) (ix2 r i)
      = ∑ k : Fin 1230, a (ix2 r k) * b (ix2 i k) := by
  simp only [matmul]
  rw [Ideal.matmul_constant_zero_apply,
    ← Equiv.sum_comp (ValueIdx.contrEquiv1 dot_S512x1230_S1230x1230_S512x1230_1_1_0_0_n_n 1230 rfl rfl).symm]
  refine Finset.sum_congr rfl fun k _ => ?_
  have hk := ValueIdx.contrEquiv1_symm_val dot_S512x1230_S1230x1230_S512x1230_1_1_0_0_n_n 1230 rfl rfl k
  have el : dot_S512x1230_S1230x1230_S512x1230_1_1_0_0_n_n.lhsIdx (ix2 r i)
      ((ValueIdx.contrEquiv1 dot_S512x1230_S1230x1230_S512x1230_1_1_0_0_n_n 1230 rfl rfl).symm k) = ix2 r k :=
    funext fun c => Fin.ext (by
      match c with
      | ⟨0, _⟩ => exact lhs_row _ _
      | ⟨1, _⟩ => exact (lhs_contr _ _).trans hk)
  have er : dot_S512x1230_S1230x1230_S512x1230_1_1_0_0_n_n.rhsIdx (ix2 r i)
      ((ValueIdx.contrEquiv1 dot_S512x1230_S1230x1230_S512x1230_1_1_0_0_n_n 1230 rfl rfl).symm k) = ix2 i k :=
    funext fun c => Fin.ext (by
      match c with
      | ⟨0, _⟩ => exact rhs_col _ _
      | ⟨1, _⟩ => exact (rhs_contr _ _).trans hk)
  rw [el, er]

/-! ## The body's stages -/

variable (x0 x1 : FVec Ideal S512x1230 .f32) (x2 : FVec Ideal S1230x1230 .bf16)

/-- The row maxima, repeated across the lanes. -/
def stMax : FVec Ideal S512x1230 .f32 :=
  broadcastTo S512x1230 (shapeCast S512x1 (multiReduction .maximumf [1] S512 x0 0xFF800000#32 reduces_S512x1230_S512 (.inl rfl) rfl)
    shapeCasts_S512_S512x1) broadcasts_S512x1_S512x1230
/-- The shifted logits. -/
def stShift : FVec Ideal S512x1230 .f32 := subf x0 (stMax x0)
/-- Their exponentials. -/
def stExp : FVec Ideal S512x1230 .f32 := exp (stShift x0)
/-- The contraction's left operand, `(1 - t) * e`. -/
def stLeft : FVec Ideal S512x1230 .bf16 :=
  truncf .bf16 (mulf (subf (broadcast S512x1230 (Scalar.ofBits .f32 0x3F800000#32)) x1) (stExp x0)) bitsLt_bf16_f32
/-- The denominators. -/
def stDen : FVec Ideal S512x1230 .f32 :=
  addf (addf (matmul dot_S512x1230_S1230x1230_S512x1230_1_1_0_0_n_n none (stLeft x0 x1)
      (shapeCast S1230x1230 x2 shapeCasts_S1230x1230_S1230x1230) (constant S512x1230 .f32 0x00000000#32)) (stExp x0))
    (broadcast S512x1230 (Scalar.ofBits .f32 0x358637BD#32))
/-- The terms `t * (x - log D)`. -/
def stTerm : FVec Ideal S512x1230 .f32 := mulf x1 (subf (stShift x0) (log (stDen x0 x1 x2)))
/-- The rows' losses, as a column. -/
def stRow : FVec Ideal S512x1 .f32 :=
  subf (broadcast S512x1 (Scalar.ofBits .f32 0x00000000#32))
    (shapeCast S512x1 (multiReduction .add [1] S512 (stTerm x0 x1 x2) 0x00000000#32 reduces_S512x1230_S512 (.inl rfl) rfl)
      shapeCasts_S512_S512x1)

/-- The stored value is the rows' losses summed down the column and repeated over the block. -/
theorem pay_eq : k0_pay1 (F := Ideal) x0 x1 x2
    = broadcastTo S1x8x128 (shapeCast S1x1x1 (shapeCast S1x1
        (multiReduction .add [0] S1 (stRow x0 x1 x2) 0x00000000#32 reduces_S512x1_S1 (.inl rfl) rfl)
        shapeCasts_S1_S1x1) shapeCasts_S1x1_S1x1x1) broadcasts_S1x1x1_S1x8x128 := rfl

/-! ## The stages at an index -/

theorem stMax_at (r : Fin 512) (c : Fin 1230) : stMax x0 (ix2 r c) = rowMax (row x0 r) := by
  unfold stMax
  rw [repeat_col_at, col_at]
  exact lane_max_at x0 _ _ rfl r

theorem stShift_at (r : Fin 512) (c : Fin 1230) : stShift x0 (ix2 r c) = shifted (row x0 r) c := by
  unfold stShift; rw [subf_apply, stMax_at]; rfl

theorem stExp_at (r : Fin 512) (c : Fin 1230) : stExp x0 (ix2 r c) = ex (row x0 r) c := by
  unfold stExp
  show FloatOps.exp (stShift x0 (ix2 r c)) = _
  rw [stShift_at]; rfl

theorem stLeft_at (r : Fin 512) (k : Fin 1230) :
    stLeft x0 x1 (ix2 r k) = (one - row x1 r k) * ex (row x0 r) k := by
  unfold stLeft
  rw [truncf_apply, mulf_apply, subf_apply, broadcast_apply, stExp_at]; rfl

theorem stDen_at (r : Fin 512) (i : Fin 1230) :
    stDen x0 x1 x2 (ix2 r i) = den (row x0 r) (row x1 r) (mat x2) i := by
  unfold stDen
  rw [addf_apply, addf_apply, broadcast_apply, contract_at, stExp_at, shapeCast_self]
  unfold den mass
  simp only [stLeft_at]
  rfl

theorem stTerm_at (r : Fin 512) (i : Fin 1230) :
    stTerm x0 x1 x2 (ix2 r i) = row x1 r i * (shifted (row x0 r) i - Ideal.log (den (row x0 r) (row x1 r) (mat x2) i)) := by
  unfold stTerm
  rw [mulf_apply, subf_apply, stShift_at]
  show _ * (_ - FloatOps.log (stDen x0 x1 x2 (ix2 r i))) = _
  rw [stDen_at]; rfl

theorem stRow_at (r : Fin 512) : stRow x0 x1 x2 (ix2 r (0 : Fin 1)) = rowLossSub (row x0 r) (row x1 r) (mat x2) := by
  unfold stRow
  rw [subf_apply, broadcast_apply, col_at]
  rw [lane_sum_at _ _ _ rfl r]
  unfold rowLossSub
  simp only [stTerm_at]
  rfl

/-- THE TILE'S VALUE: every entry of the stored block is the sum of the tile's 512 row losses. -/
theorem pay_at (j : S1x8x128.Idx) :
    k0_pay1 (F := Ideal) x0 x1 x2 j = ∑ r : Fin 512, rowLossSub (row x0 r) (row x1 r) (mat x2) := by
  rw [pay_eq]
  refine (column_total_at (stRow x0 x1 x2) _ _ rfl _ _ _ j).trans ?_
  exact Finset.sum_congr rfl fun r _ => stRow_at x0 x1 x2 r

end Cert.KernelIdeal.Payload

end
-- ==== Proof.TileValue.lean ====
/-
  What the kernel's program leaves in its result: the 64 tiles' partial losses, summed and scaled by `2⁻¹⁵`.

  Grid point `t` stages rows `512 t … 512 t + 511` of the logits and of the targets and the whole class matrix (cast
  to bf16 on the way in, the identity on the extended reals), and writes block `t` of the 64 × 8 × 128 output: every
  entry of that block is tile `t`'s partial loss, the sum of its 512 rows' losses. The blocks tile the output array,
  so after the region the array holds, at `(t, ·, ·)`, tile `t`'s partial loss. The lines after the region take
  entry `(t, 0, 0)` of every tile, add the 64 of them to zero and multiply by `2⁻¹⁵`.
-/
import proofs.«172744_j5076651344113_2_alg».proof.Proof.Gen.KernelIdeal.Frame
import proofs.«172744_j5076651344113_2_alg».proof.Proof.Payload
import Idealize.ShloMosaic.Lib.Pipeline.Value
import Idealize.ShloMosaic.Lib.StableHlo.Run

set_option maxRecDepth 16384

noncomputable section

namespace Cert.KernelIdeal.TileValue

open Cert.KernelIdeal Cert.KernelIdeal.Gen Idealize.ShloMosaic Idealize.ShloMosaic.TcCoe Idealize.SL.Sem
open Idealize.ShloMosaic.StableHlo Idealize.ShloMosaic.ValueIdx Cert.Seesaw
open Idealize.ShloMosaic.Pipeline (Dat)

/-- The output array after the region: tile `t`'s partial loss at every `(t, ·, ·)`. -/
def tiles (L T : S32768x1230.Idx → EReal) (S : S1230x1230.Idx → EReal) : S64x8x128.Idx → EReal :=
  fun i => tileLoss L T S ⟨(i 0).val, (i 0).isLt⟩

variable (m : (ℓ : Loc nD τ sig) → Buf (Elt Ideal) ℓ) (ρ : Dev nD → PrngReg)

theorem origin2 : (![0, 0] : Fin 2 → Nat) = fun _ => 0 := funext fun a => by fin_cases a <;> rfl
theorem origin3 : (![0, 0, 0] : Fin 3 → Nat) = fun _ => 0 := funext fun a => by fin_cases a <;> rfl

/-- Where each window's block sits at grid point `t`: the row windows and the output window at block `t` of their
    first axis, the class matrix whole. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- A grid point as a tile number. -/
def tileOf (t : Fin cfg0.N) : Fin 64 := ⟨t.val, by have := t.isLt; have h : cfg0.N = 64 := N_0; omega⟩

/-- Row `r` of the logits' block at point `t` is row `512 t + r` of the logits. -/
theorem logits_block (c : Dev nD) (t : Fin cfg0.N) (r : Fin 512) (k : Fin 1230) :
    iblk m c 0 t (ix2 r k) = V m c main_arg0 (ix2 ⟨512 * (tileOf t).val + r.val, by have := (tileOf t).isLt; have := r.isLt; omega⟩ k) := by
  show V m c main_arg0 (((cfg0.win 0).blk t).view.emb (ix2 r k)) = V m c main_arg0 _
  obtain ⟨e0, e1, -⟩ := block_index t
  refine congrArg _ (funext fun a => Fin.ext ?_)
  match a with
  | ⟨0, _⟩ => show win0_0.index t (0 : Fin 2) * 512 + 1 * r.val = 512 * t.val + r.val; omega
  | ⟨1, _⟩ => show win0_0.index t (1 : Fin 2) * 1230 + 1 * k.val = k.val; omega

/-- Row `r` of the targets' block at point `t` is row `512 t + r` of the targets. -/
theorem targets_block (c : Dev nD) (t : Fin cfg0.N) (r : Fin 512) (k : Fin 1230) :
    iblk m c 1 t (ix2 r k) = V m c main_arg1 (ix2 ⟨512 * (tileOf t).val + r.val, by have := (tileOf t).isLt; have := r.isLt; omega⟩ k) := by
  show V m c main_arg1 (((cfg0.win 1).blk t).view.emb (ix2 r k)) = V m c main_arg1 _
  obtain ⟨-, -, e0, e1, -⟩ := block_index t
  refine congrArg _ (funext fun a => Fin.ext ?_)
  match a with
  | ⟨0, _⟩ => show win0_1.index t (0 : Fin 2) * 512 + 1 * r.val = 512 * t.val + r.val; omega
  | ⟨1, _⟩ => show win0_1.index t (1 : Fin 2) * 1230 + 1 * k.val = k.val; omega

/-- The class matrix's block is the whole matrix, at every point. -/
theorem matrix_block (c : Dev nD) (t : Fin cfg0.N) (i k : Fin 1230) :
    iblk m c 2 t (ix2 i k) = V m c main_v0 (ix2 i k) := by
  show V m c main_v0 (((cfg0.win 2).blk t).view.emb (ix2 i k)) = V m c main_v0 _
  obtain ⟨-, -, -, -, e0, e1, -⟩ := block_index t
  refine congrArg _ (funext fun a => Fin.ext ?_)
  match a with
  | ⟨0, _⟩ => show win0_2.index t (0 : Fin 2) * 1230 + 1 * i.val = i.val; omega
  | ⟨1, _⟩ => show win0_2.index t (1 : Fin 2) * 1230 + 1 * k.val = k.val; omega

/-- WHAT POINT `t` WRITES BACK is block `t` of the tiles' partial losses. -/
theorem flushed_eq (c : Dev nD) (t : Fin cfg0.N) :
    (dats m 0 c).flushed 3 t
      = ((cfg0.win 3).blk t).view.read (Elt Ideal) (tiles (V m c main_arg0) (V m c main_arg1) (V m c main_v0)) := by
  show (cfg0.win 3).cut (grid0.coords t) ((dats m 0 c).after 3 t) = _
  rw [after0_3]
  unfold out0_3
  rw [View.canon_unit_zero origin3]
  simp only [View.ld_unit_zero (S := S512x1230) origin2, View.ld_unit_zero (S := S1230x1230) origin2]
  funext j
  show k0_pay1 (F := Ideal) (iblk m c 0 t) (iblk m c 1 t) (iblk m c 2 t) j
    = tiles (V m c main_arg0) (V m c main_arg1) (V m c main_v0) (((cfg0.win 3).blk t).view.emb j)
  refine (Payload.pay_at (iblk m c 0 t) (iblk m c 1 t) (iblk m c 2 t) j).trans ?_
  obtain ⟨-, -, -, -, -, -, e0, -⟩ := block_index t
  have ht : (⟨((((cfg0.win 3).blk t).view.emb j) 0).val, ((((cfg0.win 3).blk t).view.emb j) 0).isLt⟩ : Fin 64) = tileOf t :=
    Fin.ext (by
      have hj : (j 0).val < 1 := (j 0).isLt
      show win0_3.index t (0 : Fin 3) * 1 + 1 * (j 0).val = t.val
      omega)
  unfold tiles tileLoss
  rw [ht]
  refine Finset.sum_congr rfl fun r _ => ?_
  have h0 : row (iblk m c 0 t) r = row (V m c main_arg0) ⟨512 * (tileOf t).val + r.val, by have := (tileOf t).isLt; have := r.isLt; omega⟩ :=
    funext fun k => logits_block m c t r k
  have h1 : row (iblk m c 1 t) r = row (V m c main_arg1) ⟨512 * (tileOf t).val + r.val, by have := (tileOf t).isLt; have := r.isLt; omega⟩ :=
    funext fun k => targets_block m c t r k
  have h2 : mat (iblk m c 2 t) = mat (V m c main_v0) := funext fun i => funext fun k => matrix_block m c t i k
  rw [h0, h1, h2]

/-- An index of the output array is in point `t`'s block iff each coordinate is in the block's range on its axis. -/
theorem mem_block (t : Fin cfg0.N) (i : S64x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v1).slice (win0_3.rect t)).set ↔ _
  rw [View.set_slice_whole, Rect.mem_set_unit]
  exact Iff.rfl

/-- The 64 blocks tile the output array: index `(t, ·, ·)` is in point `t`'s block. -/
theorem covered (i : S64x8x128.Idx) : ∃ t : Fin cfg0.N, (cfg0.win 3).flush t = true ∧ i ∈ ((cfg0.win 3).blk t).view.set := by
  have hN : cfg0.N = 64 := N_0
  have hi0 : (i 0).val < 64 := (i 0).isLt
  have hi1 : (i 1).val < 8 := (i 1).isLt
  have hi2 : (i 2).val < 128 := (i 2).isLt
  refine ⟨⟨(i 0).val, by omega⟩, flush0_3 _, ?_⟩
  rw [mem_block]
  obtain ⟨-, -, -, -, -, -, e0, e1, e2⟩ := block_index ⟨(i 0).val, by omega⟩
  intro a
  match a with
  | ⟨0, _⟩ => show win0_3.index _ (0 : Fin 3) * 1 ≤ (i 0).val ∧ (i 0).val < win0_3.index _ (0 : Fin 3) * 1 + 1; simp only at e0; omega
  | ⟨1, _⟩ => show win0_3.index _ (1 : Fin 3) * 8 ≤ (i 1).val ∧ (i 1).val < win0_3.index _ (1 : Fin 3) * 8 + 8; omega
  | ⟨2, _⟩ => show win0_3.index _ (2 : Fin 3) * 128 ≤ (i 2).val ∧ (i 2).val < win0_3.index _ (2 : Fin 3) * 128 + 128; omega

/-- THE OUTPUT ARRAY after the region: the tiles' partial losses. -/
theorem final (c : Dev nD) :
    (dats m 0 c).arrAt 3 cfg0.N = tiles (V m c main_arg0) (V m c main_arg1) (V m c main_v0) :=
  (dats m 0 c).arrAt_eq_of_cover 3 _ (fun t _ => flushed_eq m c t) covered

/-! ## The lines after the region -/

/-- The first entry of every tile's block, the 64 of them added to zero, times `2⁻¹⁵`. -/
theorem tail_value (A : S64x8x128.Idx → EReal) (h1 : S64x8x128.Slices ![0, 0, 0] S64x1x1) (h2 : S64x1x1.ShapeCasts S64)
    (h3 : S64.ReducesTo [0] S_) (h4 : 0 < S_.numel) :
    mulf (F := Ideal) (Host.reduceAdd (fun i => shapeCast S64 (extractStridedSlice S64x1x1 ![0, 0, 0] A h1) h2 i)
        (constant S_ .f32 0x00000000#32) h3 h4) (constant S_ .f32 0x38000000#32)
      = fun _ => (zero + ∑ t : Fin 64, A (ix3 t (0 : Fin 8) (0 : Fin 128))) * invN := by
  funext i
  rw [mulf_apply]
  refine congrArg (· * invN) ?_
  simp only [Host.reduceAdd, Ideal.hostReduceAdd_def]
  rw [Ideal.hostReduceAdd_total h3 (fun b => b.elim0) _ _ i]
  refine congrArg (zero + ·) ?_
  rw [sum_ix1]
  refine Finset.sum_congr rfl fun t _ => ?_
  refine (shapeCast_apply _ h2 (ix1 t) (ix3 t (0 : Fin 1) (0 : Fin 1)) (by
    rw [Shape.rowMajor_val_three, Shape.rowMajor_val_one]
    show (t.val * 1 + 0) * 1 + 0 = t.val
    omega)).trans ?_
  exact extractStridedSlice_apply _ A h1 _ (ix3 t (0 : Fin 8) (0 : Fin 128)) (fun a => match a with
    | ⟨0, _⟩ => by show t.val = 0 + t.val; omega
    | ⟨1, _⟩ => rfl
    | ⟨2, _⟩ => rfl)

/-- The class matrix as the region finds it is the argument cast to bf16: on the extended reals, the argument. -/
theorem matrix_entry (c : Dev nD) :
    (V m c main_v0 : S1230x1230.Idx → EReal) = m ((c : Thread nD τ).loc main_arg2) := by
  show StableHlo.after hostOps0 (fun b => m (c, b)) (Proc.devRef .tc main_v0) = _
  after_results
  rfl

/-- THE RESULT of the kernel's program: the loss summed tile by tile and scaled by `2⁻¹⁵`, of the argument arrays. -/
theorem result_eq (c : Dev nD) :
    Pipeline.afterTail₀ cfgs (dats m) 0 (V0 m) [hostOps1] c main_v5
      = fun _ => lossTiled (m ((c : Thread nD τ).loc main_arg0)) (m ((c : Thread nD τ).loc main_arg1)) (m ((c : Thread nD τ).loc main_arg2)) := by
  have hw : Pipeline.withArrays (cfgs 0).spec c (V0 m c) (fun w => (dats m 0 c).arrAt w (cfgs 0).N) (Proc.devRef .tc main_v1)
      = tiles (m ((c : Thread nD τ).loc main_arg0)) (m ((c : Thread nD τ).loc main_arg1)) (m ((c : Thread nD τ).loc main_arg2)) := by
    refine (Pipeline.withArrays_arr spec0 launch0.win.arr_inj c _ _ 3).trans ((final m c).trans ?_)
    rw [V_main_arg0, V_main_arg1, matrix_entry]
  unfold Pipeline.afterTail₀
  show StableHlo.after hostOps1 _ (Proc.devRef .tc main_v5) = _
  after_results
  rw [hw]
  refine (tail_value _ _ _ _ _).trans ?_
  rfl

/-- THE RUN of the kernel's program: every weakly fair execution terminates with the result at the tiled loss of the
    argument arrays, and the arguments unchanged. -/
theorem run : θ_run defs (onTc (τ := τ) (main (F := Ideal))) ⟨m, fun _ => 0, ρ⟩ (fun r => ∀ c : Dev nD,
      r.2.mem ((c.tc : Thread nD τ).loc main_v5)
        = (fun _ => lossTiled (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.TileValue

end
-- ==== Proof.lean ====
/-
  The seesaw loss of a batch of 32768 rows over 1230 classes, computed two ways, is one number on the extended reals.

  Per row, with `M` the largest logit, `x = l - M`, `e = exp x` and `D i = (∑ k, ((1 - t k) * e k) * S (i, k)) + e i + ε`:
  one program works tile by tile (64 tiles of 512 rows), takes `t i * (x i - log (D i))`, subtracts each row's sum from
  zero, adds the rows of a tile, adds the 64 tiles to zero and multiplies by `2⁻¹⁵`; the other works on all rows at
  once, takes `t i * log (e i / D i)`, negates each row's sum, adds all 32768 rows to zero and divides by `32768`.
  The inputs are finite and every quotient `e i / D i` is positive (outside that the second program's logarithm is
  undefined). Then `e i` is a positive real and `D i` a real that is positive or zero; for `D i > 0` the logarithm
  of the quotient is the difference of the logarithms, and for `D i = 0` both terms are `+∞`. Everything else is the
  regrouping of a finite sum of extended reals, `0 - s = -s`, and that dividing by `32768` is multiplying by `2⁻¹⁵`,
  at the infinities too. A change of float format (the casts to bf16 on the way into the contraction) is the
  identity on the extended reals, and the tile's contraction into a zero accumulator is the whole contraction's
  rows.

  The modules: `Seesaw` (the row's loss twice, the law, the regrouping), `RefRead` (the all-rows program stage by
  stage in that vocabulary), `Payload` (the tile program's stored value), `TileValue` (its output array and its
  result), `PreFacts` (what the precondition gives).
-/
import proofs.«172744_j5076651344113_2_alg».proof.Defs
import proofs.«172744_j5076651344113_2_alg».proof.Proof.Gen.Kernel
import proofs.«172744_j5076651344113_2_alg».proof.Proof.Gen.Kernel.Skeleton
import proofs.«172744_j5076651344113_2_alg».proof.Proof.Gen.Kernel.Launch
import proofs.«172744_j5076651344113_2_alg».proof.Proof.Gen.Kernel.Points
import proofs.«172744_j5076651344113_2_alg».proof.Proof.Gen.Kernel.Frame
import proofs.«172744_j5076651344113_2_alg».proof.Proof.Gen.KernelIdeal
import proofs.«172744_j5076651344113_2_alg».proof.Proof.Gen.KernelIdeal.Skeleton
import proofs.«172744_j5076651344113_2_alg».proof.Proof.Gen.KernelIdeal.Launch
import proofs.«172744_j5076651344113_2_alg».proof.Proof.Gen.KernelIdeal.Points
import proofs.«172744_j5076651344113_2_alg».proof.Proof.Gen.KernelIdeal.Frame
import proofs.«172744_j5076651344113_2_alg».proof.Proof.Gen.ReferenceIdeal
import proofs.«172744_j5076651344113_2_alg».proof.Proof.Gen.ReferenceIdeal.Run
import proofs.«172744_j5076651344113_2_alg».proof.Proof.Gen.ReferenceIdeal.Read
import proofs.«172744_j5076651344113_2_alg».proof.Proof.Gen.Pre_finite_inputs
import proofs.«172744_j5076651344113_2_alg».proof.Proof.Seesaw
import proofs.«172744_j5076651344113_2_alg».proof.Proof.RefRead
import proofs.«172744_j5076651344113_2_alg».proof.Proof.PreFacts
import proofs.«172744_j5076651344113_2_alg».proof.Proof.TileValue
import Idealize.ShloMosaic.Adequacy
import Idealize.ShloMosaic.Init

noncomputable section

namespace Cert.Proof

open Idealize.ShloMosaic Idealize.SL.Sem Cert.Seesaw

/-- The tile program at the machine's words runs and keeps its arguments. -/
theorem frame_kernel : Cert.frame_Kernel := fun m ρ _ => Cert.Kernel.Gen.frame m ρ

/-- So does it on the extended reals. -/
theorem frame_kernelIdeal : Cert.frame_KernelIdeal := fun m ρ _ => Cert.KernelIdeal.Gen.frame m ρ

/-- The all-rows program runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the tile program was rewritten on the way to the extended reals. -/
theorem preserves : Cert.preserves_Kernel_KernelIdeal := trivial

/-- The tile program ends at the loss summed tile by tile and scaled by `2⁻¹⁵`, the all-rows program at the loss summed
    over all rows and divided by `32768`; on finite inputs with positive quotients these are one number. -/
theorem algebraic : Cert.algebraic_KernelIdeal_ReferenceIdeal := by
  intro m ρ m' ρ' hpre hagree
  refine ⟨fun c => fun _ => lossTiled (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.TileValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v18_eq]
  funext i
  rw [ValueIdx.eq_ix0 i, Cert.ReferenceIdeal.RefRead.v18_at]
  have hp := hpre c
  exact (loss_eq _ _ _ (Cert.PreFacts.logits_real _ _ _ hp) (Cert.PreFacts.targets_real _ _ _ hp)
    (Cert.PreFacts.matrix_real _ _ _ hp) (Cert.PreFacts.sigma_pos _ _ _ hp)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
